-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S100000x64 .f32) (main_arg1 : IVec S1600000 32) (main_arg2 : IVec S1600000 32) (main_arg3 : FVec F S1600000 .f32) (main_arg4 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  main_v13
-- ==== Kernel.lean ====
abbrev S100000x64 : Shape := ⟨2, ![100000, 64]⟩
abbrev S1600000 : Shape := ⟨1, ![1600000]⟩
abbrev S64x64 : Shape := ⟨2, ![64, 64]⟩
abbrev S_ : Shape := ⟨0, ![]⟩
abbrev S1600000x1 : Shape := ⟨2, ![1600000, 1]⟩
abbrev S1600000x64 : Shape := ⟨2, ![1600000, 64]⟩
abbrev S10000x64 : Shape := ⟨2, ![10000, 64]⟩

abbrev nBuf : Space → Nat
  | .hbm => 22
  | .vmem => 5
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S64x64, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x64, .f32⟩
  | .hbm, ⟨14, _⟩ => ⟨S1600000x1, .f32⟩
  | .hbm, ⟨15, _⟩ => ⟨S1600000x64, .f32⟩
  | .hbm, ⟨16, _⟩ => ⟨S1600000x64, .f32⟩
  | .hbm, ⟨17, _⟩ => ⟨S_, .f32⟩
  | .hbm, ⟨18, _⟩ => ⟨S100000x64, .f32⟩
  | .hbm, ⟨19, _⟩ => ⟨S1600000x1, .i32⟩
  | .hbm, ⟨20, _⟩ => ⟨S100000x64, .f32⟩
  | .hbm, ⟨21, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v12) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S_ : Shape := ⟨0, ![]⟩
abbrev S1600000x1 : Shape := ⟨2, ![1600000, 1]⟩
abbrev S1600000x64 : Shape := ⟨2, ![1600000, 64]⟩

abbrev nBuf : Space → Nat
  | .hbm => 25
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S64x64, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x64, .f32⟩
  | .hbm, ⟨14, _⟩ => ⟨S1600000x1, .f32⟩
  | .hbm, ⟨15, _⟩ => ⟨S1600000x64, .f32⟩
  | .hbm, ⟨16, _⟩ => ⟨S1600000x64, .f32⟩
  | .hbm, ⟨17, _⟩ => ⟨S_, .f32⟩
  | .hbm, ⟨18, _⟩ => ⟨S100000x64, .f32⟩
  | .hbm, ⟨19, _⟩ => ⟨S1600000x1, .i32⟩
  | .hbm, ⟨20, _⟩ => ⟨S100000x64, .f32⟩
  | .hbm, ⟨21, _⟩ => ⟨S100000x64, .f32⟩
  | .hbm, ⟨22, _⟩ => ⟨S_, .f32⟩
  | .hbm, ⟨23, _⟩ => ⟨S100000x64, .f32⟩
  | .hbm, ⟨24, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Payload.lean ====
/-
  What the kernel's body stores, read at one entry of its block. The body loads a block `x0` of
  10000 rows of the aggregated features and the whole weight matrix `x1`, rounds both to bf16 (the
  identity on the extended reals), multiplies them on the matrix unit into a zero accumulator and
  takes the maximum with zero. At entry (p, q) that is

      max (∑ k, x0 (p, k) · x1 (k, q)) 0 ,

  the matrix unit's sum over its contracted index re-indexed by `Fin 64`.
-/
import proofs.«159093_j83528523973324_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-- The left operand's index at output index `j` and contracted index `q`: row of `j`, -/
theorem lhs_row (j : S10000x64.Idx) (q : dot_S10000x64_S64x64_S10000x64_1_0_0_1_n_n.contr.Idx) :
    (dot_S10000x64_S64x64_S10000x64_1_0_0_1_n_n.lhsIdx j q 0).val = (j 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- column `q`. -/
theorem lhs_col (j : S10000x64.Idx) (q : dot_S10000x64_S64x64_S10000x64_1_0_0_1_n_n.contr.Idx) :
    (dot_S10000x64_S64x64_S10000x64_1_0_0_1_n_n.lhsIdx j q 1).val = (q ⟨0, by decide⟩).val :=
  dot_S10000x64_S64x64_S10000x64_1_0_0_1_n_n.lhsIdx_val_of_single rfl j q
/-- The right operand's index: row `q`, -/
theorem rhs_row (j : S10000x64.Idx) (q : dot_S10000x64_S64x64_S10000x64_1_0_0_1_n_n.contr.Idx) :
    (dot_S10000x64_S64x64_S10000x64_1_0_0_1_n_n.rhsIdx j q 0).val = (q ⟨0, by decide⟩).val :=
  dot_S10000x64_S64x64_S10000x64_1_0_0_1_n_n.rhsIdx_val_of_single rfl j q
/-- column of `j`. -/
theorem rhs_col (j : S10000x64.Idx) (q : dot_S10000x64_S64x64_S10000x64_1_0_0_1_n_n.contr.Idx) :
    (dot_S10000x64_S64x64_S10000x64_1_0_0_1_n_n.rhsIdx j q 1).val = (j 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The matrix unit's product of a block with the weights into a zero accumulator, at entry (p, q): the
    sum over `k : Fin 64` of the products of row `p` with column `q`. -/
theorem matmul_entry (a : FVec Ideal S10000x64 .bf16) (b : FVec Ideal S64x64 .bf16) (p : Fin 10000) (q : Fin 64) :
    FloatOps.matmul dot_S10000x64_S64x64_S10000x64_1_0_0_1_n_n none a b (constant S10000x64 .f32 0x00000000#32) (ix2 p q)
      = ∑ k : Fin 64, a (ix2 p k) * b (ix2 k q) := by
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhs_row _ _
    | ⟨1, _⟩ => exact (lhs_col _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhs_row _ _).trans hk
    | ⟨1, _⟩ => exact rhs_col _ _)
  rw [el, er]

/-- The body's stored value at entry (p, q) of its block. -/
theorem payload_apply (x0 : Vec Ideal S10000x64 .f32) (x1 : Vec Ideal S64x64 .f32) (p : Fin 10000) (q : Fin 64) :
    k0_pay1 (F := Ideal) x0 x1 (ix2 p q)
      = max (∑ k : Fin 64, x0 (ix2 p k) * x1 (ix2 k q)) (Ideal.ofBits .f32 0x00000000#32) := by
  unfold k0_pay1
  refine congrArg (fun z => max z (Ideal.ofBits .f32 0x00000000#32)) ?_
  refine (matmul_entry _ _ p q).trans ?_
  refine Finset.sum_congr rfl fun k _ => ?_
  show shapeCast S10000x64 x0 shapeCasts_S10000x64_S10000x64 (ix2 p k) * x1 (ix2 k q) = _
  rw [shapeCast_self]

end Cert.KernelIdeal.Block

end
-- ==== Proof.ProjRelu.lean ====
/-
  The function both programs compute from the aggregated node features `A` (100000 × 64) and the
  projection weights `W` (64 × 64), on the extended reals:

      out (r, c) = max (∑ k, A (r, k) · W (k, c)) 0 .

  Row `r` of the result depends on row `r` of `A` only, which is why a tiling of the rows into
  ten blocks of 10000 computes the same array as one whole product. The zero is kept as the float
  word `0x00000000` and is never evaluated: both programs spell it with that word.
-/
import Idealize.ShloMosaic.PureOps.Ideal
import Idealize.ShloMosaic.Lib.ValueIdx

noncomputable section

namespace Cert.ProjRelu

open Idealize.ShloMosaic Idealize.ShloMosaic.ValueIdx

/-- The shape of the aggregated features and of the result. -/
abbrev Rows : Shape := ⟨2, ![100000, 64]⟩
/-- The shape of the weights. -/
abbrev Wts : Shape := ⟨2, ![64, 64]⟩

/-- One entry: the rectified inner product of row `r` of `A` with column `c` of `W`. -/
def entry (A : Rows.Idx → EReal) (W : Wts.Idx → EReal) (r : Fin 100000) (c : Fin 64) : EReal :=
  max (∑ k : Fin 64, A (ix2 r k) * W (ix2 k c)) (Ideal.ofBits .f32 0x00000000#32)

/-- The whole array: `max (A · W) 0`, entry by entry. -/
def projRelu (A : Rows.Idx → EReal) (W : Wts.Idx → EReal) : Rows.Idx → EReal :=
  fun i => entry A W (i 0) (i 1)

theorem projRelu_apply (A : Rows.Idx → EReal) (W : Wts.Idx → EReal) (r : Fin 100000) (c : Fin 64) :
    projRelu A W (ix2 r c) = entry A W r c := rfl

end Cert.ProjRelu

end
-- ==== Proof.Whole.lean ====
/-
  The kernel's result array as ONE function of the arrays its region finds. The region runs its body at
  ten grid points; point `t` stages rows 10000·t … 10000·t + 9999 of the aggregated features, the whole
  weight matrix, and writes back the same rows of the result. Entry (p, q) of the block written at `t`
  is max (∑ k, agg (10000·t + p, k) · W (k, q)) 0 — entry (10000·t + p, q) of `projRelu agg W`, since a
  row of the product depends on that row of `agg` only. The ten blocks tile the 100000 rows (row `r`
  lies in block `r / 10000`), so after the run the result array is `projRelu agg W`.
-/
import proofs.«159093_j83528523973324_1_alg».proof.Proof.Gen.KernelIdeal.Value
import proofs.«159093_j83528523973324_1_alg».proof.Proof.Payload
import proofs.«159093_j83528523973324_1_alg».proof.Proof.ProjRelu

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.ProjRelu
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The three index maps over the ten grid points: the feature and result windows move down the rows with
    the point, the weight window stays at its one block. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `y` of the feature window's block at point `t`, read off ANY contents `A` of the staged array, is
    entry (10000·t + y₀, y₁) of `A`. -/
theorem rows_read (t : Fin cfg0.N) (A : S100000x64.Idx → EReal) (y : S10000x64.Idx) (i : S100000x64.Idx)
    (h0 : (i 0).val = t.val * 10000 + (y 0).val) (h1 : (i 1).val = (y 1).val) :
    (((cfg0.win 0).blk t).view.read (Elt Ideal) A : Vec Ideal S10000x64 .f32) y = A i := by
  obtain ⟨e0, e1, -⟩ := index_maps t
  show A (((cfg0.win 0).blk t).view.emb y) = A i
  refine congrArg A ?_
  funext a
  apply Fin.ext
  match a with
  | ⟨0, _⟩ => show win0_0.index t (0 : Fin 2) * 10000 + 1 * (y 0).val = (i 0).val; rw [e0, h0]; omega
  | ⟨1, _⟩ => show win0_0.index t (1 : Fin 2) * 64 + 1 * (y 1).val = (i 1).val; rw [e1, h1]; omega

/-- The weight window's block at every point, read off any contents `W` of the weight array, is `W`. -/
theorem weights_read (t : Fin cfg0.N) (W : S64x64.Idx → EReal) (y : S64x64.Idx) :
    (((cfg0.win 1).blk t).view.read (Elt Ideal) W : Vec Ideal S64x64 .f32) y = W y := by
  obtain ⟨-, -, e0, e1, -⟩ := index_maps t
  show W (((cfg0.win 1).blk t).view.emb y) = W y
  refine congrArg W ?_
  funext a
  apply Fin.ext
  match a with
  | ⟨0, _⟩ => show win0_1.index t (0 : Fin 2) * 64 + 1 * (y 0).val = (y 0).val; rw [e0]; omega
  | ⟨1, _⟩ => show win0_1.index t (1 : Fin 2) * 64 + 1 * (y 1).val = (y 1).val; rw [e1]; omega

/-- The body's stored value of the blocks at point `t` of any arrays `A`, `W` is block `t` of `projRelu A W`:
    entry (p, q) of the block is entry (10000·t + p, q) of the whole product, rectified. -/
theorem block_eq (t : Fin cfg0.N) (A : S100000x64.Idx → EReal) (W : S64x64.Idx → EReal) :
    (cfg0.win 2).cut (grid0.coords t)
        (k0_pay1 (F := Ideal) (((cfg0.win 0).blk t).view.read (Elt Ideal) A) (((cfg0.win 1).blk t).view.read (Elt Ideal) W))
      = ((cfg0.win 2).blk t).view.read (Elt Ideal) (projRelu A W) := by
  obtain ⟨-, -, -, -, e0, e1⟩ := index_maps t
  have hN : cfg0.N = 10 := N_0
  have ht : t.val < 10 := hN ▸ t.isLt
  funext j
  have hj0 : (j 0).val < 10000 := Nat.lt_of_lt_of_le (j 0).isLt ((win0 2).xsize_le (grid0.coords t) 0)
  have hj1 : (j 1).val < 64 := Nat.lt_of_lt_of_le (j 1).isLt ((win0 2).xsize_le (grid0.coords t) 1)
  have hx : (win0 2).xinj (grid0.coords t) j = ix2 (⟨(j 0).val, hj0⟩ : Fin 10000) (⟨(j 1).val, hj1⟩ : Fin 64) :=
    funext fun a => Fin.ext (by
      match a with
      | ⟨0, _⟩ => rfl
      | ⟨1, _⟩ => rfl)
  have hr : t.val * 10000 + (j 0).val < 100000 := by omega
  have he : ((cfg0.win 2).blk t).view.emb j = ix2 (⟨t.val * 10000 + (j 0).val, hr⟩ : Fin 100000) (⟨(j 1).val, hj1⟩ : Fin 64) :=
    funext fun a => Fin.ext (by
      match a with
      | ⟨0, _⟩ => show win0_2.index t (0 : Fin 2) * 10000 + 1 * (j 0).val = t.val * 10000 + (j 0).val; rw [e0]; omega
      | ⟨1, _⟩ => show win0_2.index t (1 : Fin 2) * 64 + 1 * (j 1).val = (j 1).val; rw [e1]; omega)
  show k0_pay1 (F := Ideal) (((cfg0.win 0).blk t).view.read (Elt Ideal) A) (((cfg0.win 1).blk t).view.read (Elt Ideal) W)
      ((win0 2).xinj (grid0.coords t) j)
    = projRelu A W (((cfg0.win 2).blk t).view.emb j)
  rw [hx, he, projRelu_apply]
  refine (Block.payload_apply _ _ _ _).trans ?_
  unfold entry
  refine congrArg (fun z => max z (Ideal.ofBits .f32 0x00000000#32)) ?_
  refine Finset.sum_congr rfl fun k _ => ?_
  rw [rows_read t A (ix2 (⟨(j 0).val, hj0⟩ : Fin 10000) k) (ix2 (⟨t.val * 10000 + (j 0).val, hr⟩ : Fin 100000) k) rfl rfl,
    weights_read t W (ix2 k (⟨(j 1).val, hj1⟩ : Fin 64))]

/-- WHAT POINT `t` WRITES BACK is block `t` of `projRelu` of the staged features and the weights. -/
theorem flushed_eq (c : Dev nD) (t : Fin cfg0.N) :
    (dats m 0 c).flushed 2 t
      = ((cfg0.win 2).blk t).view.read (Elt Ideal) (projRelu (V m c main_v12) (V m c main_arg4)) := by
  rw [flushed2]
  unfold out0_2
  rw [View.canon_unit_zero zero_offsets]
  simp only [View.ld_unit_zero (S := S10000x64) zero_offsets, View.ld_unit_zero (S := S64x64) zero_offsets]
  unfold iblk
  exact block_eq t (V m c main_v12) (V m c main_arg4)

/-- An index of the result array is in point `t`'s block iff each coordinate is in the block's range. -/
theorem mem_blk (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v13).slice (win0_2.rect t)).set ↔ _
  rw [View.set_slice_whole, Rect.mem_set_unit]
  exact Iff.rfl

/-- Every entry of the result array is written back by some point: row `r` by point `r / 10000`. -/
theorem cover (i : S100000x64.Idx) :
    ∃ t : Fin cfg0.N, (cfg0.win 2).flush t = true ∧ i ∈ ((cfg0.win 2).blk t).view.set := by
  have hN : cfg0.N = 10 := N_0
  have hi0 : (i 0).val < 100000 := (i 0).isLt
  have hi1 : (i 1).val < 64 := (i 1).isLt
  have hq : (i 0).val / 10000 < cfg0.N := by rw [hN]; omega
  refine ⟨⟨(i 0).val / 10000, hq⟩, flush0_2 _, ?_⟩
  obtain ⟨-, -, -, -, e0, e1⟩ := index_maps ⟨(i 0).val / 10000, hq⟩
  rw [mem_blk]
  intro a
  match a with
  | ⟨0, _⟩ =>
    show win0_2.index ⟨(i 0).val / 10000, hq⟩ (0 : Fin 2) * 10000 ≤ (i 0).val
      ∧ (i 0).val < win0_2.index ⟨(i 0).val / 10000, hq⟩ (0 : Fin 2) * 10000 + 10000
    rw [e0]
    show (i 0).val / 10000 * 10000 ≤ (i 0).val ∧ (i 0).val < (i 0).val / 10000 * 10000 + 10000
    omega
  | ⟨1, _⟩ =>
    show win0_2.index ⟨(i 0).val / 10000, hq⟩ (1 : Fin 2) * 64 ≤ (i 1).val
      ∧ (i 1).val < win0_2.index ⟨(i 0).val / 10000, hq⟩ (1 : Fin 2) * 64 + 64
    rw [e1]
    omega

/-- THE RESULT ARRAY after the run. -/
theorem final (c : Dev nD) : (dats m 0 c).arrAt 2 cfg0.N = projRelu (V m c main_v12) (V m c main_arg4) :=
  (dats m 0 c).arrAt_eq_of_cover 2 (projRelu (V m c main_v12) (V m c main_arg4)) (fun t _ => flushed_eq m c t) cover

/-- The kernel's run, read: the result array at `projRelu` of the staged features and the weights as
    launched, the arguments unchanged. -/
theorem run : θ_run defs (onTc (τ := τ) (main (F := Ideal))) ⟨m, fun _ => 0, ρ⟩ fun r => ∀ c : Dev nD,
      r.2.mem ((c : Thread nD τ).loc main_v13) = projRelu (V m c main_v12) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (by rw [V_main_arg4])), (h c).2⟩)
    (run_blocks m ρ)

end Cert.KernelIdeal.Whole

end
-- ==== Proof.Agg.lean ====
/-
  The aggregated node features. Both programs compute them on the host by the same sixteen operations
  — wrap negative column indices, gather the rows of `features` they name, scale each gathered row by
  its edge value, and scatter-add the rows into a zero array at the row indices — before anything
  else. The kernel's program hands the result to its one region as the array its first window stages;
  this module says that this array is, as a function of the four arguments it depends on, the
  reference's stage `val_main_v12`. The operations are compared as written, one by one, and never
  opened.
-/
import proofs.«159093_j83528523973324_1_alg».proof.Proof.Gen.KernelIdeal.Frame
import proofs.«159093_j83528523973324_1_alg».proof.Proof.Gen.ReferenceIdeal.Read
import Idealize.ShloMosaic.Lib.StableHlo.Run

noncomputable section

namespace Cert.KernelIdeal.Agg

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The array the region's first window stages is the reference's aggregation stage of the launch contents of
    `features`, `edge_rows`, `edge_cols` and `edge_vals`. -/
theorem staged_eq (c : Dev nD) :
    (V m c main_v12 : S100000x64.Idx → EReal)
      = Cert.ReferenceIdeal.Read.val_main_v12 (F := Ideal) (m ((c : Thread nD τ).loc main_arg0)) (m ((c : Thread nD τ).loc main_arg1))
          (m ((c : Thread nD τ).loc main_arg2)) (m ((c : Thread nD τ).loc main_arg3)) := by
  dsimp only [Gen.V, Gen.hostOps0]
  after_results
  rfl

end Cert.KernelIdeal.Agg

end
-- ==== Proof.RefRead.lean ====
/-
  The reference's result is `projRelu` of its aggregated features and the weights. Its last three
  stages are a `dot_general` contracting the feature axis — at an entry (r, c) the sum over `k` of
  agg (r, k) · W (k, c) — and a maximum with a broadcast zero; entry by entry that is the
  specification. The aggregated features (gather, scale, scatter-add) are carried as one array and
  never opened.
-/
import proofs.«159093_j83528523973324_1_alg».proof.Proof.Gen.ReferenceIdeal.Read
import proofs.«159093_j83528523973324_1_alg».proof.Proof.ProjRelu

noncomputable section

namespace Cert.ReferenceIdeal.RefValue

open Cert.ReferenceIdeal Cert.ReferenceIdeal.Read Idealize.ShloMosaic Idealize.ShloMosaic.ValueIdx Cert.ProjRelu

/-- The reference's result, as a function of its five arguments, is the rectified product of the aggregated
    features (its stage `val_main_v12`) with the weights. -/
theorem result_eq (x0 : (⟨S100000x64, .f32⟩ : BufTy).Contents (Elt Ideal)) (x1 x2 : (⟨S1600000, .i32⟩ : BufTy).Contents (Elt Ideal))
    (x3 : (⟨S1600000, .f32⟩ : BufTy).Contents (Elt Ideal)) (x4 : (⟨S64x64, .f32⟩ : BufTy).Contents (Elt Ideal)) :
    val_main_v14 (F := Ideal) x0 x1 x2 x3 x4 = projRelu (val_main_v12 (F := Ideal) x0 x1 x2 x3) x4 := by
  funext i
  have el : ∀ k : Fin 64, lidx_main_v13 i k = ix2 (i 0) k := fun k => funext fun a => Fin.ext (by
    match a with
    | ⟨0, _⟩ => rfl
    | ⟨1, _⟩ => rfl)
  have er : ∀ k : Fin 64, ridx_main_v13 i k = ix2 k (i 1) := fun k => funext fun a => Fin.ext (by
    match a with
    | ⟨0, _⟩ => rfl
    | ⟨1, _⟩ => rfl)
  rw [val_main_v14_apply, val_main_v13_apply, val_main_call0_v0_apply, val_main_call0_cst_apply]
  simp only [el, er]
  rfl

end Cert.ReferenceIdeal.RefValue

end
-- ==== Proof.lean ====
/-
  The kernel computes `relu (agg · W)` and so does the reference, where `agg` is the edge-list
  aggregation `segment_sum (features[edge_cols] · edge_vals, edge_rows)` that both programs compute on
  the host with the same operations. The kernel's program then tiles the 100000 rows of `agg` into ten
  blocks of 10000, and for each block multiplies by the 64 × 64 weights on the matrix unit (after a
  rounding to bf16, which is the identity on the extended reals) and rectifies; the reference makes one
  `dot_general` of the whole array and one maximum with zero. On the extended reals both are

      out (r, c) = max (∑ k, agg (r, k) · W (k, c)) 0 ,

  the same sum over the same 64 terms in both programs: no law of arithmetic beyond that is used, and
  the finiteness of the inputs is not needed.

  The pieces: `ProjRelu` states that function; `Payload` reads the kernel body's stored value at an
  entry; `Whole` assembles the ten written-back blocks into the whole result array; `Agg` says the
  array the kernel's region is handed is the reference's aggregation stage; `RefRead` reads the
  reference's last stages at an entry. No operation of the kernel is rewritten on the way to its
  idealization, so the word-level kernel's relation to it asks nothing.
-/
import proofs.«159093_j83528523973324_1_alg».proof.Defs
import proofs.«159093_j83528523973324_1_alg».proof.Proof.Gen.Kernel
import proofs.«159093_j83528523973324_1_alg».proof.Proof.Gen.Kernel.Skeleton
import proofs.«159093_j83528523973324_1_alg».proof.Proof.Gen.Kernel.Launch
import proofs.«159093_j83528523973324_1_alg».proof.Proof.Gen.Kernel.Points
import proofs.«159093_j83528523973324_1_alg».proof.Proof.Gen.Kernel.Frame
import proofs.«159093_j83528523973324_1_alg».proof.Proof.Gen.KernelIdeal
import proofs.«159093_j83528523973324_1_alg».proof.Proof.Gen.KernelIdeal.Skeleton
import proofs.«159093_j83528523973324_1_alg».proof.Proof.Gen.KernelIdeal.Launch
import proofs.«159093_j83528523973324_1_alg».proof.Proof.Gen.KernelIdeal.Points
import proofs.«159093_j83528523973324_1_alg».proof.Proof.Gen.KernelIdeal.Frame
import proofs.«159093_j83528523973324_1_alg».proof.Proof.Gen.ReferenceIdeal
import proofs.«159093_j83528523973324_1_alg».proof.Proof.Gen.KernelIdeal.Value
import proofs.«159093_j83528523973324_1_alg».proof.Proof.Gen.ReferenceIdeal.Run
import proofs.«159093_j83528523973324_1_alg».proof.Proof.Gen.ReferenceIdeal.Read
import proofs.«159093_j83528523973324_1_alg».proof.Proof.Gen.Pre_finite_inputs
import proofs.«159093_j83528523973324_1_alg».proof.Proof.Whole
import proofs.«159093_j83528523973324_1_alg».proof.Proof.Agg
import proofs.«159093_j83528523973324_1_alg».proof.Proof.RefRead
import Idealize.ShloMosaic.Adequacy
import Idealize.ShloMosaic.Init

noncomputable section

namespace Cert.Proof

open Idealize.ShloMosaic Idealize.ShloMosaic.TcCoe Idealize.SL.Sem

/-- The kernel's run with the staged features named as the reference's aggregation stage of the arguments. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD,
        r.2.mem ((c.tc : Thread Cert.KernelIdeal.nD Cert.KernelIdeal.τ).loc Cert.KernelIdeal.main_v13)
          = Cert.ProjRelu.projRelu
              (Cert.ReferenceIdeal.Read.val_main_v12 (F := Ideal)
                (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
                (m ((c.tc : Thread Cert.KernelIdeal.nD Cert.KernelIdeal.τ).loc Cert.KernelIdeal.main_arg2))
                (m ((c.tc : Thread Cert.KernelIdeal.nD Cert.KernelIdeal.τ).loc Cert.KernelIdeal.main_arg3)))
              (m ((c.tc : Thread Cert.KernelIdeal.nD Cert.KernelIdeal.τ).loc Cert.KernelIdeal.main_arg4))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) :=
  (θ_run Cert.KernelIdeal.defs _ _).mono
    (fun _ h c => ⟨(h c).1.trans (congrArg (fun A => Cert.ProjRelu.projRelu A _) (Cert.KernelIdeal.Agg.staged_eq m c)), (h c).2⟩)
    (Cert.KernelIdeal.Whole.run m ρ)

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the idealized kernel. -/
theorem preserves : Cert.preserves_Kernel_KernelIdeal := trivial

/-- Both runs end with the result array at `projRelu` of the aggregation stage of the arguments and the weights. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
